-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S_ : Shape := ⟨0, ![]⟩

class Facts : Prop where
  bcast_S_S8x8x8192x64 : S_.BroadcastsInDim S8x8x8192x64 (![] : Fin 0 → Fin S8x8x8192x64.rank)
  reducesTo_S8x8x8192x64_S_d0_1_2_3 : S8x8x8192x64.ReducesTo [0, 1, 2, 3] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_

variable [Facts]

def fn {F : FTy → Type} [FloatOps F] (main_arg0 : FVec F S8x8x8192x64 .f32) (main_arg1 : FVec F S8x64x256 .f32) (main_arg2 : FVec F S8x256x64 .f32) : IVec S_ 1 :=
  let main_v0 : FVec F S8x8x8192x64 .f32 := Host.absf main_arg0
  let main_cst : FVec F S_ .f32 := constant S_ .f32 0x7F800000#32
  let main_v1 : FVec F S8x8x8192x64 .f32 := broadcastInDim S8x8x8192x64 ![] bcast_S_S8x8x8192x64 main_cst
  let main_v2 : IVec S8x8x8192x64 1 := cmpf .olt main_v0 main_v1
  let main_c : IVec S_ 1 := constantI S_ 1 1#1
  let main_v3 : IVec S_ 1 := (fun x v => Host.reduce IntOp.andi x v reducesTo_S8x8x8192x64_S_d0_1_2_3 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S8x256x64 .f32 := Host.absf main_arg2
  let main_cst_2 : FVec F S_ .f32 := constant S_ .f32 0x7F800000#32
  let main_v10 : FVec F S8x256x64 .f32 := broadcastInDim S8x256x64 ![] bcast_S_S8x256x64 main_cst_2
  let main_v11 : IVec S8x256x64 1 := cmpf .olt main_v9 main_v10
  let main_c_3 : IVec S_ 1 := constantI S_ 1 1#1
  let main_v12 : IVec S_ 1 := (fun x v => Host.reduce IntOp.andi x v reducesTo_S8x256x64_S_d0_1_2 h_S_) main_v11 main_c_3
  let main_v13 : IVec S_ 1 := andi main_v8 main_v12
  main_v13
-- ==== Kernel.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S8x65536x64 : Shape := ⟨3, ![8, 65536, 64]⟩
abbrev S8x32768x128 : Shape := ⟨3, ![8, 32768, 128]⟩
abbrev S_ : Shape := ⟨0, ![]⟩
abbrev S8x64x512 : Shape := ⟨3, ![8, 64, 512]⟩
abbrev S8x128x512 : Shape := ⟨3, ![8, 128, 512]⟩
abbrev S8x256x128 : Shape := ⟨3, ![8, 256, 128]⟩
abbrev S8x512x128 : Shape := ⟨3, ![8, 512, 128]⟩
abbrev S1x4096x128 : Shape := ⟨3, ![1, 4096, 128]⟩
abbrev S1x128x512 : Shape := ⟨3, ![1, 128, 512]⟩
abbrev S1x512x128 : Shape := ⟨3, ![1, 512, 128]⟩
abbrev S4096x128 : Shape := ⟨2, ![4096, 128]⟩
abbrev S128x512 : Shape := ⟨2, ![128, 512]⟩
abbrev S4096x512 : Shape := ⟨2, ![4096, 512]⟩
abbrev S512x128 : Shape := ⟨2, ![512, 128]⟩

abbrev nBuf : Space → Nat
  | .hbm => 20
  | .vmem => 8
  | .smem => 0
  | _ => 0

abbrev bufTy : (tb : Table) → Fin (tcTables nBuf tb) → BufTy
  | .hbm, ⟨0, _⟩ => ⟨S8x8x8192x64, .f32⟩
  | .hbm, ⟨1, _⟩ => ⟨S8x64x256, .f32⟩
  | .hbm, ⟨2, _⟩ => ⟨S8x256x64, .f32⟩
  | .hbm, ⟨3, _⟩ => ⟨S8x65536x64, .f32⟩
  | .hbm, ⟨4, _⟩ => ⟨S8x32768x128, .f32⟩
  | .hbm, ⟨5, _⟩ => ⟨S8x64x256, .bf16⟩
  | .hbm, ⟨6, _⟩ => ⟨S_, .bf16⟩
  | .hbm, ⟨7, _⟩ => ⟨S8x64x256, .bf16⟩
  | .hbm, ⟨8, _⟩ => ⟨S8x64x512, .bf16⟩
  | .hbm, ⟨9, _⟩ => ⟨S8x64x512, .bf16⟩
  | .hbm, ⟨10, _⟩ => ⟨S8x128x512, .bf16⟩
  | .hbm, ⟨11, _⟩ => ⟨S8x256x64, .bf16⟩
  | .hbm, ⟨12, _⟩ => ⟨S_, .bf16⟩
  | .hbm, ⟨13, _⟩ => ⟨S8x256x64, .bf16⟩
  | .hbm, ⟨14, _⟩ => ⟨S8x256x128, .bf16⟩
  | .hbm, ⟨15, _⟩ => ⟨S8x256x128, .bf16⟩
  | .hbm, ⟨16, _⟩ => ⟨S8x512x128, .bf16⟩
  | .hbm, ⟨17, _⟩ => ⟨S8x32768x128, .f32⟩
  | .hbm, ⟨18, _⟩ => ⟨S8x65536x64, .f32⟩
  | .hbm, ⟨19, _⟩ => ⟨S8x8x8192x64, .f32⟩
  | .local _ .vmem, ⟨0, _⟩ => ⟨S1x4096x128, .f32⟩
  | .local _ .vmem, ⟨1, _⟩ => ⟨S1x4096x128, .f32⟩
  | .local _ .vmem, ⟨2, _⟩ => ⟨S1x128x512, .bf16⟩
  | .local _ .vmem, ⟨3, _⟩ => ⟨S1x128x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x4096x128, .f32⟩
  | .local _ .vmem, ⟨7, _⟩ => ⟨S1x4096x128, .f32⟩
  | _, _ => ⟨S8x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x8x8192x64_S8x65536x64 : S8x8x8192x64.ShapeCasts S8x65536x64
  shapeCasts_S8x65536x64_S8x32768x128 : S8x65536x64.ShapeCasts S8x32768x128
  bitsLt_bf16_f32 : FTy.bits .bf16 < FTy.bits .f32
  bcast_S_S8x64x256 : S_.BroadcastsInDim S8x64x256 (![] : Fin 0 → Fin S8x64x256.rank)
  concatenates_S8x64x256_S8x64x256_S8x64x512_d2 : Shape.Concatenates [S8x64x256, S8x64x256] S8x64x512 2
  concatenates_S8x64x512_S8x64x512_S8x128x512_d1 : Shape.Concatenates [S8x64x512, S8x64x512] S8x128x512 1
  bcast_S_S8x256x64 : S_.BroadcastsInDim S8x256x64 (![] : Fin 0 → Fin S8x256x64.rank)
  concatenates_S8x256x64_S8x256x64_S8x256x128_d2 : Shape.Concatenates [S8x256x64, S8x256x64] S8x256x128 2
  concatenates_S8x256x128_S8x256x128_S8x512x128_d1 : Shape.Concatenates [S8x256x128, S8x256x128] S8x512x128 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S4096x128_S1x4096x128 : S4096x128.ShapeCasts S1x4096x128
  shapeCasts_S8x32768x128_S8x65536x64 : S8x32768x128.ShapeCasts S8x65536x64
  shapeCasts_S8x65536x64_S8x8x8192x64 : S8x65536x64.ShapeCasts S8x8x8192x64
  dot_S4096x128_S128x512_S4096x512_1_0_0_1_n_n_wf : DotDims.WF S4096x128 S128x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x32768x128.size a
  hwx0_0 : ∀ i : grid0.Coords, EltTy.bits .f32 = 32 ∨ (Rect.block (s := S8x32768x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .bf16 = 32 ∨ (Rect.block (s := S8x128x512) S1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S8x512x128.size a
  hwx0_2 : ∀ i : grid0.Coords, EltTy.bits .bf16 = 32 ∨ (Rect.block (s := S8x512x128) S1x512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S8x32768x128.size a
  hwx0_3 : ∀ i : grid0.Coords, EltTy.bits .f32 = 32 ∨ (Rect.block (s := S8x32768x128) S1x4096x128.size (cc0_transform_3 i) (hinb0_3 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v1) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S8x65536x64 : Shape := ⟨3, ![8, 65536, 64]⟩
abbrev S8x65536x256 : Shape := ⟨3, ![8, 65536, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x8x8192x64, .f32⟩
  | .hbm, ⟨1, _⟩ => ⟨S8x64x256, .f32⟩
  | .hbm, ⟨2, _⟩ => ⟨S8x256x64, .f32⟩
  | .hbm, ⟨3, _⟩ => ⟨S8x65536x64, .f32⟩
  | .hbm, ⟨4, _⟩ => ⟨S8x65536x256, .f32⟩
  | .hbm, ⟨5, _⟩ => ⟨S_, .f32⟩
  | .hbm, ⟨6, _⟩ => ⟨S8x65536x256, .f32⟩
  | .hbm, ⟨7, _⟩ => ⟨S8x65536x256, .f32⟩
  | .hbm, ⟨8, _⟩ => ⟨S8x65536x64, .f32⟩
  | .hbm, ⟨9, _⟩ => ⟨S8x8x8192x64, .f32⟩
  | _, _ => ⟨S8x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S8x8x8192x64_S8x65536x64 : S8x8x8192x64.ShapeCasts S8x65536x64
  bcast_S_S8x65536x256 : S_.BroadcastsInDim S8x65536x256 (![] : Fin 0 → Fin S8x65536x256.rank)
  shapeCasts_S8x65536x64_S8x8x8192x64 : S8x65536x64.ShapeCasts S8x8x8192x64
  dot_S8x65536x64_S8x64x256_S8x65536x256_2_1_1_2_0_0_wf : DotDims.WF S8x65536x64 S8x64x256 S8x65536x256 [2] [1] [1] [2] [0] [0]
  dot_S8x65536x256_S8x256x64_S8x65536x64_2_1_1_2_0_0_wf : DotDims.WF S8x65536x256 S8x256x64 S8x65536x64 [2] [1] [1] [2] [0] [0]

variable [Facts₀]

def dot_S8x65536x64_S8x64x256_S8x65536x256_2_1_1_2_0_0 : DotDims S8x65536x64 S8x64x256 S8x65536x256 where
  lhsContracting := [2]
  rhsContracting := [1]
  lhsNonContracting := [1]
  rhsNonContracting := [2]
  lhsBatch := [0]
  rhsBatch := [0]
  wf := dot_S8x65536x64_S8x64x256_S8x65536x256_2_1_1_2_0_0_wf
def dot_S8x65536x256_S8x256x64_S8x65536x64_2_1_1_2_0_0 : DotDims S8x65536x256 S8x256x64 S8x65536x64 where
  lhsContracting := [2]
  rhsContracting := [1]
  lhsNonContracting := [1]
  rhsNonContracting := [2]
  lhsBatch := [0]
  rhsBatch := [0]
  wf := dot_S8x65536x256_S8x256x64_S8x65536x64_2_1_1_2_0_0_wf

class Facts : Prop extends Facts₀ where

variable [Facts]
-- ==== Proof.BodyAtIndex.lean ====
/-
  What one run of the kernel body stores, read at an index.

  The body is given one block of 4096 rows of 128 entries (`x0`), one 128 × 512 matrix (`x1`) and one 512 × 128 matrix
  (`x2`), each with a leading axis of extent one, and stores `relu (x0 · x1) · x2`: entry `(r, l)` of what it stores is

      Σ_{j < 512} max (Σ_{k < 128} x0 (r, k) · x1 (k, j)) 0 · x2 (j, l) .

  On the extended reals a change of float format is the identity, a matrix product into a zero accumulator is the plain
  sum of products over the contracted axis, and the zero word is the number `0`; dropping or adding an axis of extent one
  keeps the row-major position.
-/
import proofs.«160526_j61933428416507_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The first product, rows × (128 × 512), into a zero accumulator: entry `(r, j)` is `Σ_k a (r, k) · w (k, j)`. -/
theorem rows_mul_first (a : FVec Ideal S4096x128 .bf16) (w : FVec Ideal S128x512 .bf16) (r : Fin 4096) (j : Fin 512) :
    matmul dot_S4096x128_S128x512_S4096x512_1_0_0_1_n_n none a w (constant S4096x512 .f32 0x00000000#32) (ix2 r j)
      = ∑ k : Fin 128, a (ix2 r k) * w (ix2 k j) := by
  simp only [matmul]
  rw [Ideal.matmul_constant_zero_apply,
    ← Equiv.sum_comp (contrEquiv1 dot_S4096x128_S128x512_S4096x512_1_0_0_1_n_n 128 rfl rfl).symm]
  refine Finset.sum_congr rfl fun k _ => ?_
  have hk := contrEquiv1_symm_val dot_S4096x128_S128x512_S4096x512_1_0_0_1_n_n 128 rfl rfl k
  have el : dot_S4096x128_S128x512_S4096x512_1_0_0_1_n_n.lhsIdx (ix2 r j)
      ((contrEquiv1 dot_S4096x128_S128x512_S4096x512_1_0_0_1_n_n 128 rfl rfl).symm k) = ix2 r k :=
    funext fun a => Fin.ext (by
      match a with
      | ⟨0, _⟩ => rfl
      | ⟨1, _⟩ => exact (dot_S4096x128_S128x512_S4096x512_1_0_0_1_n_n.lhsIdx_val_of_single rfl _ _).trans hk)
  have er : dot_S4096x128_S128x512_S4096x512_1_0_0_1_n_n.rhsIdx (ix2 r j)
      ((contrEquiv1 dot_S4096x128_S128x512_S4096x512_1_0_0_1_n_n 128 rfl rfl).symm k) = ix2 k j :=
    funext fun a => Fin.ext (by
      match a with
      | ⟨0, _⟩ => exact (dot_S4096x128_S128x512_S4096x512_1_0_0_1_n_n.rhsIdx_val_of_single rfl _ _).trans hk
      | ⟨1, _⟩ => rfl)
  rw [el, er]

/-- The second product, (rows × 512) × (512 × 128), into a zero accumulator: entry `(r, l)` is `Σ_j h (r, j) · w (j, l)`. -/
theorem rows_mul_second (h : FVec Ideal S4096x512 .bf16) (w : FVec Ideal S512x128 .bf16) (r : Fin 4096) (l : Fin 128) :
    matmul dot_S4096x512_S512x128_S4096x128_1_0_0_1_n_n none h w (constant S4096x128 .f32 0x00000000#32) (ix2 r l)
      = ∑ j : Fin 512, h (ix2 r j) * w (ix2 j l) := by
  simp only [matmul]
  rw [Ideal.matmul_constant_zero_apply,
    ← Equiv.sum_comp (contrEquiv1 dot_S4096x512_S512x128_S4096x128_1_0_0_1_n_n 512 rfl rfl).symm]
  refine Finset.sum_congr rfl fun j _ => ?_
  have hj := contrEquiv1_symm_val dot_S4096x512_S512x128_S4096x128_1_0_0_1_n_n 512 rfl rfl j
  have el : dot_S4096x512_S512x128_S4096x128_1_0_0_1_n_n.lhsIdx (ix2 r l)
      ((contrEquiv1 dot_S4096x512_S512x128_S4096x128_1_0_0_1_n_n 512 rfl rfl).symm j) = ix2 r j :=
    funext fun a => Fin.ext (by
      match a with
      | ⟨0, _⟩ => rfl
      | ⟨1, _⟩ => exact (dot_S4096x512_S512x128_S4096x128_1_0_0_1_n_n.lhsIdx_val_of_single rfl _ _).trans hj)
  have er : dot_S4096x512_S512x128_S4096x128_1_0_0_1_n_n.rhsIdx (ix2 r l)
      ((contrEquiv1 dot_S4096x512_S512x128_S4096x128_1_0_0_1_n_n 512 rfl rfl).symm j) = ix2 j l :=
    funext fun a => Fin.ext (by
      match a with
      | ⟨0, _⟩ => exact (dot_S4096x512_S512x128_S4096x128_1_0_0_1_n_n.rhsIdx_val_of_single rfl _ _).trans hj
      | ⟨1, _⟩ => rfl)
  rw [el, er]

/-- WHAT THE BODY STORES, at row `r` and entry `l` of its block (`u` is the one position of the leading unit axis). -/
theorem stored_apply (x0 : Vec Ideal S1x4096x128 .f32) (x1 : Vec Ideal S1x128x512 .bf16) (x2 : Vec Ideal S1x512x128 .bf16)
    (u : Fin 1) (r : Fin 4096) (l : Fin 128) :
    k0_pay1 (F := Ideal) x0 x1 x2 (ix3 u r l)
      = ∑ j : Fin 512, max (∑ k : Fin 128, x0 (ix3 u r k) * x1 (ix3 u k j)) 0 * x2 (ix3 u j l) := by
  have hu : u.val = 0 := by have := u.isLt; omega
  unfold k0_pay1
  refine (shapeCast_apply _ shapeCasts_S4096x128_S1x4096x128 (ix3 u r l) (ix2 r l) ?_).trans ?_
  · rewrite [Shape.rowMajor_val_two, Shape.rowMajor_val_three]
    show r.val * 128 + l.val = (u.val * 4096 + r.val) * 128 + l.val
    omega
  refine (rows_mul_second _ _ r l).trans (Finset.sum_congr rfl fun j _ => ?_)
  refine congrArg₂ (· * ·) ?_ ?_
  · -- the hidden activation: the maximum of the first product and zero
    refine (congrArg₂ max (rows_mul_first _ _ r j) Ideal.ofBits_zero_f32).trans ?_
    refine congrArg (fun s => max s 0) (Finset.sum_congr rfl fun k _ => congrArg₂ (· * ·) ?_ ?_)
    · refine shapeCast_apply x0 shapeCasts_S1x4096x128_S4096x128 (ix2 r k) (ix3 u r k) ?_
      rewrite [Shape.rowMajor_val_two, Shape.rowMajor_val_three]
      show (u.val * 4096 + r.val) * 128 + k.val = r.val * 128 + k.val
      omega
    · refine shapeCast_apply x1 shapeCasts_S1x128x512_S128x512 (ix2 k j) (ix3 u k j) ?_
      rewrite [Shape.rowMajor_val_two, Shape.rowMajor_val_three]
      show (u.val * 128 + k.val) * 512 + j.val = k.val * 512 + j.val
      omega
  · refine shapeCast_apply x2 shapeCasts_S1x512x128_S512x128 (ix2 j l) (ix3 u j l) ?_
    rewrite [Shape.rowMajor_val_two, Shape.rowMajor_val_three]
    show (u.val * 512 + j.val) * 128 + l.val = j.val * 128 + l.val
    omega

end Cert.KernelIdeal.Body

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.FfnSpec.lean ====
/-
  The function both programs compute, and the law that joins their two arrangements of it.

  Slot `b` of the input holds 65536 tokens of 64 features; slot `b` of the two weight arrays holds a 64 × 256 and a
  256 × 64 matrix. The TWO-LAYER FEED-FORWARD of a token `t` of slot `b` is, at output feature `d`,

      ffn X w1 w2 (b, t, d) = Σ_{f < 256} max (Σ_{k < 64} X (b, t, k) · w1 (b, k, f)) 0 · w2 (b, f, d) .

  The same function can be taken two tokens at a time: lay tokens `2r` and `2r + 1` side by side in one row of 128
  entries, and use the block-diagonal matrices diag (w1, w1) (128 × 512) and diag (w2, w2) (512 × 128). Row `r` of

      ffnRows X' W1 W2 (b, r, l) = Σ_{j < 512} max (Σ_{k < 128} X' (b, r, k) · W1 (b, k, j)) 0 · W2 (b, j, l)

  then holds the two tokens' results side by side (`ffnRows_eq_ffn`). Every term that pairs the two halves is a product
  with an off-diagonal entry of a block-diagonal matrix, that is with `0`, and `x · 0 = 0` for EVERY extended real `x`
  (also the infinite ones: Mathlib's convention `⊤ · 0 = 0`); what is left is regrouping a sum over `2 · L` consecutive
  positions into its two halves, which uses only commutativity and associativity of `+`. So the law holds on all of the
  extended reals and needs no finiteness of the entries.
-/
import Idealize.ShloMosaic.Lib.ValueIdx
import proofs.«160526_j61933428416507_2_alg».proof.Proof.LibBlockSum

noncomputable section

open scoped BigOperators

namespace Cert.Ffn

open Idealize.ShloMosaic Idealize.ShloMosaic.ValueIdx Cert.Lib.BlockSum

/-- Tokens: 8 slots × 65536 tokens × 64 features. -/
abbrev STok : Shape := ⟨3, ![8, 65536, 64]⟩
/-- First-layer weights: per slot 64 × 256. -/
abbrev SW1 : Shape := ⟨3, ![8, 64, 256]⟩
/-- Second-layer weights: per slot 256 × 64. -/
abbrev SW2 : Shape := ⟨3, ![8, 256, 64]⟩
/-- Token pairs: 8 slots × 32768 rows × 128 entries (two tokens side by side). -/
abbrev SRow : Shape := ⟨3, ![8, 32768, 128]⟩
/-- Doubled first-layer weights: per slot 128 × 512. -/
abbrev SW1d : Shape := ⟨3, ![8, 128, 512]⟩
/-- Doubled second-layer weights: per slot 512 × 128. -/
abbrev SW2d : Shape := ⟨3, ![8, 512, 128]⟩

/-- The two-layer feed-forward of each token with its slot's weights: `relu (x · w1) · w2`. -/
def ffn (X : STok.Idx → EReal) (w1 : SW1.Idx → EReal) (w2 : SW2.Idx → EReal) : STok.Idx → EReal := fun i =>
  ∑ f : Fin 256, max (∑ k : Fin 64, X (ix3 (i 0) (i 1) k) * w1 (ix3 (i 0) k f)) 0 * w2 (ix3 (i 0) f (i 2))

/-- The same expression on rows of 128 entries with 128 × 512 and 512 × 128 matrices. -/
def ffnRows (X : SRow.Idx → EReal) (W1 : SW1d.Idx → EReal) (W2 : SW2d.Idx → EReal) : SRow.Idx → EReal := fun i =>
  ∑ j : Fin 512, max (∑ k : Fin 128, X (ix3 (i 0) (i 1) k) * W1 (ix3 (i 0) k j)) 0 * W2 (ix3 (i 0) j (i 2))

/-- Half `p`, position `k` of `2 · L` consecutive positions. -/
abbrev half (L : Nat) (p : Fin 2) (k : Fin L) : Fin (2 * L) := ⟨L * p.val + k.val, blockPos_lt rfl p k⟩

/-- A sum over the two halves in which only half `q` contributes is half `q`'s sum. -/
theorem sum_halves_single {M : Type} [AddCommMonoid M] {L : Nat} (q : Fin 2) (g : Fin (2 * L) → M)
    (h : ∀ (p : Fin 2) (k : Fin L), p ≠ q → g (half L p k) = 0) :
    ∑ j : Fin (2 * L), g j = ∑ k : Fin L, g (half L q k) := by
  rw [sum_blocks_of_eq (G := 2) (L := L) rfl g]
  exact Finset.sum_eq_single q (fun p _ hp => Finset.sum_eq_zero fun k _ => h p k hp)
    (fun hq => absurd (Finset.mem_univ q) hq)

/-- THE LAW. If row `r` of `X'` is tokens `2r` and `2r + 1` of `X` side by side, and `W1`, `W2` are block-diagonal
    with both diagonal blocks `w1`, resp. `w2`, then half `q` of row `r` of `ffnRows X' W1 W2` is the feed-forward of
    token `2r + q`. -/
theorem ffnRows_eq_ffn (X : STok.Idx → EReal) (w1 : SW1.Idx → EReal) (w2 : SW2.Idx → EReal)
    (X' : SRow.Idx → EReal) (W1 : SW1d.Idx → EReal) (W2 : SW2d.Idx → EReal)
    (hX : ∀ (b : Fin 8) (r : Fin 32768) (p : Fin 2) (k : Fin 64),
      X' (ix3 b r (half 64 p k)) = X (ix3 b ⟨2 * r.val + p.val, by omega⟩ k))
    (hW1 : ∀ (b : Fin 8) (p q : Fin 2) (k : Fin 64) (f : Fin 256),
      W1 (ix3 b (half 64 p k) (half 256 q f)) = if p = q then w1 (ix3 b k f) else 0)
    (hW2 : ∀ (b : Fin 8) (p q : Fin 2) (f : Fin 256) (d : Fin 64),
      W2 (ix3 b (half 256 p f) (half 64 q d)) = if p = q then w2 (ix3 b f d) else 0)
    (b : Fin 8) (r : Fin 32768) (q : Fin 2) (d : Fin 64) :
    ffnRows X' W1 W2 (ix3 b r (half 64 q d)) = ffn X w1 w2 (ix3 b ⟨2 * r.val + q.val, by omega⟩ d) := by
  show ∑ j : Fin (2 * 256), max (∑ k : Fin (2 * 64), X' (ix3 b r k) * W1 (ix3 b k j)) 0 * W2 (ix3 b j (half 64 q d))
    = ∑ f : Fin 256, max (∑ k : Fin 64, X (ix3 b ⟨2 * r.val + q.val, by omega⟩ k) * w1 (ix3 b k f)) 0 * w2 (ix3 b f d)
  rw [sum_halves_single q _ (fun p f hp => by rw [hW2, if_neg hp, mul_zero])]
  refine Finset.sum_congr rfl fun f _ => ?_
  rw [hW2, if_pos rfl,
    sum_halves_single q (fun k : Fin (2 * 64) => X' (ix3 b r k) * W1 (ix3 b k (half 256 q f)))
      (fun p k hp => by rw [hW1, if_neg hp, mul_zero])]
  refine congrArg (fun s => max s 0 * w2 (ix3 b f d)) (Finset.sum_congr rfl fun k _ => ?_)
  rw [hX, hW1, if_pos rfl]

end Cert.Ffn

end
-- ==== Proof.PackedResult.lean ====
/-
  The array the kernel leaves: the feed-forward taken two tokens at a time, over the whole array.

  The grid has 8 × 8 points. Point `(b, s)` is given rows `4096 s … 4096 s + 4095` of slot `b` of the row array and the
  whole of slot `b` of the two matrix arrays, and writes rows `4096 s … 4096 s + 4095` of slot `b` of the result. Entry
  `(r, l)` of what it writes depends only on row `r` of its block and on its slot's matrices, so it is the entry
  `(b, 4096 s + r, l)` of ONE function of the three whole arrays, `Cert.Ffn.ffnRows`. The 64 blocks tile the result
  (row `i` of slot `b` lies in the block of point `(b, i / 4096)`), so the result array ends holding that function.
-/
import proofs.«160526_j61933428416507_2_alg».proof.Proof.Gen.KernelIdeal.Frame
import proofs.«160526_j61933428416507_2_alg».proof.Proof.BodyAtIndex
import proofs.«160526_j61933428416507_2_alg».proof.Proof.FfnSpec
import Idealize.ShloMosaic.Lib.Pipeline.Value
import Idealize.ShloMosaic.Lib.ValueIdx

set_option maxRecDepth 16384

noncomputable section

open scoped BigOperators

namespace Cert.KernelIdeal.Rows

open Idealize.ShloMosaic Idealize.ShloMosaic.TcCoe Idealize.SL.Sem
open Idealize.ShloMosaic.ValueIdx Cert.KernelIdeal Cert.KernelIdeal.Gen Cert.Ffn

variable (m : (ℓ : Loc nD τ sig) → Buf (Elt Ideal) ℓ) (ρ : Dev nD → PrngReg)

theorem origin : (![0, 0, 0] : Fin 3 → Nat) = fun _ => 0 := funext fun a => by fin_cases a <;> rfl

/-- The three arrays the kernel reads, as it finds them, and the function of them its result is. -/
abbrev rowsIn (c : Dev nD) : SRow.Idx → EReal := V (F := Ideal) m c main_v1
abbrev w1In (c : Dev nD) : SW1d.Idx → EReal := V (F := Ideal) m c main_v6
abbrev w2In (c : Dev nD) : SW2d.Idx → EReal := V (F := Ideal) m c main_v11
abbrev packed (c : Dev nD) : SRow.Idx → EReal := ffnRows (rowsIn m c) (w1In m c) (w2In m c)

/-- The printed index maps, decided over the grid: the row block moves with the result block, the matrix blocks follow
    its slot, and the block indices stay in range. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) < 8 :=
  (by decide +kernel : ∀ t : Fin grid0.N, _)

/-- Every (slot, row block) pair is some point's. -/
theorem index_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- WHAT POINT `t` WRITES BACK is block `t` of `packed`. -/
theorem flushed_eq (c : Dev nD) (t : Fin cfg0.N) :
    (dats m 0 c).flushed 3 t = ((cfg0.win 3).blk t).view.read (Elt Ideal) (packed m c) := by
  show (cfg0.win 3).cut (grid0.coords t) ((dats m 0 c).after 3 t) = _
  rw [after0_3]
  unfold out0_3
  rw [View.canon_unit_zero origin]
  simp only [View.ld_unit_zero (S := S1x4096x128) origin, View.ld_unit_zero (S := S1x128x512) origin,
    View.ld_unit_zero (S := S1x512x128) origin]
  obtain ⟨a0, a1, a2, z3, b0, b1, b2, c0, c1, c2, l0, l1⟩ := index_facts t
  funext y
  obtain ⟨u, r, l, rfl⟩ : ∃ (u : Fin 1) (r : Fin 4096) (l : Fin 128), y = ix3 u r l := ⟨y 0, y 1, y 2, eq_ix3 y⟩
  have hu : u.val = 0 := by have := u.isLt; omega
  -- the slot and the row this entry belongs to
  let b : Fin 8 := ⟨win0_3.index t (0 : Fin 3), l0⟩
  let i : Fin 32768 := ⟨win0_3.index t (1 : Fin 3) * 4096 + r.val, by have := r.isLt; omega⟩
  have e3 : ((cfg0.win 3).blk t).view.emb (ix3 u r l) = ix3 b i l := by
    funext a; apply Fin.ext
    match a with
    | ⟨0, _⟩ => show win0_3.index t (0 : Fin 3) * 1 + 1 * u.val = win0_3.index t (0 : Fin 3); omega
    | ⟨1, _⟩ => show win0_3.index t (1 : Fin 3) * 4096 + 1 * r.val = win0_3.index t (1 : Fin 3) * 4096 + r.val; omega
    | ⟨2, _⟩ => show win0_3.index t (2 : Fin 3) * 128 + 1 * l.val = l.val; omega
  have e0 : ∀ k : Fin 128, ((cfg0.win 0).blk t).view.emb (ix3 u r k) = ix3 b i k := fun k => by
    funext a; apply Fin.ext
    match a with
    | ⟨0, _⟩ => show win0_0.index t (0 : Fin 3) * 1 + 1 * u.val = win0_3.index t (0 : Fin 3); omega
    | ⟨1, _⟩ => show win0_0.index t (1 : Fin 3) * 4096 + 1 * r.val = win0_3.index t (1 : Fin 3) * 4096 + r.val; omega
    | ⟨2, _⟩ => show win0_0.index t (2 : Fin 3) * 128 + 1 * k.val = k.val; omega
  have e1 : ∀ (k : Fin 128) (j : Fin 512), ((cfg0.win 1).blk t).view.emb (ix3 u k j) = ix3 b k j := fun k j => by
    funext a; apply Fin.ext
    match a with
    | ⟨0, _⟩ => show win0_1.index t (0 : Fin 3) * 1 + 1 * u.val = win0_3.index t (0 : Fin 3); omega
    | ⟨1, _⟩ => show win0_1.index t (1 : Fin 3) * 128 + 1 * k.val = k.val; omega
    | ⟨2, _⟩ => show win0_1.index t (2 : Fin 3) * 512 + 1 * j.val = j.val; omega
  have e2 : ∀ (j : Fin 512) (l : Fin 128), ((cfg0.win 2).blk t).view.emb (ix3 u j l) = ix3 b j l := fun j l => by
    funext a; apply Fin.ext
    match a with
    | ⟨0, _⟩ => show win0_2.index t (0 : Fin 3) * 1 + 1 * u.val = win0_3.index t (0 : Fin 3); omega
    | ⟨1, _⟩ => show win0_2.index t (1 : Fin 3) * 512 + 1 * j.val = j.val; omega
    | ⟨2, _⟩ => show win0_2.index t (2 : Fin 3) * 128 + 1 * l.val = l.val; omega
  refine (Body.stored_apply (iblk m c 0 t) (iblk m c 1 t) (iblk m c 2 t) u r l).trans ?_
  show ∑ j : Fin 512, max (∑ k : Fin 128, rowsIn m c (((cfg0.win 0).blk t).view.emb (ix3 u r k))
        * w1In m c (((cfg0.win 1).blk t).view.emb (ix3 u k j))) 0 * w2In m c (((cfg0.win 2).blk t).view.emb (ix3 u j l))
    = packed m c (((cfg0.win 3).blk t).view.emb (ix3 u r l))
  rw [e3]
  simp only [e0, e1, e2]
  rfl

/-- An index of the result array is in point `t`'s block iff each coordinate is in the block's range on its axis. -/
theorem mem_blk (t : Fin cfg0.N) (i : S8x32768x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v12).slice (win0_3.rect t)).set ↔ _
  rw [View.set_slice_whole, Rect.mem_set_unit]
  exact Iff.rfl

/-- The blocks tile the result array: row `i` of slot `b` is in the block of the point with block index `(b, i / 4096)`. -/
theorem covered (i : S8x32768x128.Idx) : ∃ t : Fin cfg0.N, (cfg0.win 3).flush t = true ∧ i ∈ ((cfg0.win 3).blk t).view.set := by
  have hi0 : (i 0).val < 8 := (i 0).isLt
  have hi1 : (i 1).val < 32768 := (i 1).isLt
  have hi2 : (i 2).val < 128 := (i 2).isLt
  obtain ⟨t, ht⟩ := index_onto ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- THE RESULT ARRAY after the run. -/
theorem final (c : Dev nD) : (dats m 0 c).arrAt 3 cfg0.N = packed m c :=
  (dats m 0 c).arrAt_eq_of_cover 3 (packed m c) (fun t _ => flushed_eq m c t) covered

end Cert.KernelIdeal.Rows

end
-- ==== Proof.StagedArrays.lean ====
/-
  What the host operations before the kernel put in the three arrays the kernel reads.

  * The token array is reshaped twice, [8, 8, 8192, 64] → [8, 65536, 64] → [8, 32768, 128]: a reshape keeps the row-major
    position, so entry `64 · p + k` of row `r` of slot `b` is feature `k` of token `2r + p` of slot `b`
    (`(b · 32768 + r) · 128 + 64 p + k = (b · 65536 + 2 r + p) · 64 + k`).
  * Each weight array `w` (its change of float format is the identity on the extended reals) is joined with an array
    of zeros, once as [w | 0] and once as [0 | w] along the last axis, and the two are stacked along the middle axis:
    the block-diagonal array diag (w, w). Its entry at row `K · p + k`, column `N · q + f` is `w (k, f)` when `p = q`
    and `0` otherwise.
-/
import proofs.«160526_j61933428416507_2_alg».proof.Proof.Gen.KernelIdeal.Frame
import proofs.«160526_j61933428416507_2_alg».proof.Proof.FfnSpec
import Idealize.ShloMosaic.Lib.StableHlo.Run
import Idealize.ShloMosaic.Lib.Pipeline.Value
import Idealize.ShloMosaic.Lib.ValueIdx

noncomputable section

namespace Cert.KernelIdeal.Staged

open Idealize.ShloMosaic Idealize.ShloMosaic.TcCoe Idealize.SL.Sem Idealize.ShloMosaic.StableHlo
open Idealize.ShloMosaic.ValueIdx Cert.KernelIdeal Cert.KernelIdeal.Gen Cert.Ffn

/-! ## Two arrays joined along an axis, read in one of the two halves -/

section Join
variable {α : Type}

/-- Joined along the LAST axis: the first half reads the first array. -/
theorem join_last_fst {K N : Nat} (x₀ x₁ : (⟨3, ![8, K, N]⟩ : Shape).Idx → α)
    (h : Shape.Concatenates [⟨3, ![8, K, N]⟩, ⟨3, ![8, K, N]⟩] ⟨3, ![8, K, 2 * N]⟩ 2)
    (b : Fin 8) (k : Fin K) (q : Fin 2) (hq : q.val = 0) (f : Fin N) :
    concatenate ⟨3, ![8, K, 2 * N]⟩ 2 [⟨⟨3, ![8, K, N]⟩, x₀⟩, ⟨⟨3, ![8, K, N]⟩, x₁⟩] h (ix3 b k (half N q f)) = x₀ (ix3 b k f) :=
  concatenate_pair_apply_left 2 x₀ x₁ h _ rfl (ix3 b k f) (fun a => by
    match a with
    | ⟨0, _⟩ => rfl
    | ⟨1, _⟩ => rfl
    | ⟨2, _⟩ => show f.val = N * q.val + f.val; rw [hq]; omega)

/-- Joined along the LAST axis: the second half reads the second array. -/
theorem join_last_snd {K N : Nat} (x₀ x₁ : (⟨3, ![8, K, N]⟩ : Shape).Idx → α)
    (h : Shape.Concatenates [⟨3, ![8, K, N]⟩, ⟨3, ![8, K, N]⟩] ⟨3, ![8, K, 2 * N]⟩ 2)
    (b : Fin 8) (k : Fin K) (q : Fin 2) (hq : q.val = 1) (f : Fin N) :
    concatenate ⟨3, ![8, K, 2 * N]⟩ 2 [⟨⟨3, ![8, K, N]⟩, x₀⟩, ⟨⟨3, ![8, K, N]⟩, x₁⟩] h (ix3 b k (half N q f)) = x₁ (ix3 b k f) :=
  concatenate_pair_apply_right 2 x₀ x₁ h _ rfl rfl (ix3 b k f)
    (fun a ha => by
      match a with
      | ⟨0, _⟩ => rfl
      | ⟨1, _⟩ => rfl
      | ⟨2, _⟩ => exact absurd rfl ha)
    (by show f.val + N = N * q.val + f.val; rw [hq]; omega)

/-- Joined along the MIDDLE axis: the first half reads the first array. -/
theorem join_mid_fst {K M : Nat} (x₀ x₁ : (⟨3, ![8, K, M]⟩ : Shape).Idx → α)
    (h : Shape.Concatenates [⟨3, ![8, K, M]⟩, ⟨3, ![8, K, M]⟩] ⟨3, ![8, 2 * K, M]⟩ 1)
    (b : Fin 8) (p : Fin 2) (hp : p.val = 0) (k : Fin K) (j : Fin M) :
    concatenate ⟨3, ![8, 2 * K, M]⟩ 1 [⟨⟨3, ![8, K, M]⟩, x₀⟩, ⟨⟨3, ![8, K, M]⟩, x₁⟩] h (ix3 b (half K p k) j) = x₀ (ix3 b k j) :=
  concatenate_pair_apply_left 1 x₀ x₁ h _ rfl (ix3 b k j) (fun a => by
    match a with
    | ⟨0, _⟩ => rfl
    | ⟨1, _⟩ => show k.val = K * p.val + k.val; rw [hp]; omega
    | ⟨2, _⟩ => rfl)

/-- Joined along the MIDDLE axis: the second half reads the second array. -/
theorem join_mid_snd {K M : Nat} (x₀ x₁ : (⟨3, ![8, K, M]⟩ : Shape).Idx → α)
    (h : Shape.Concatenates [⟨3, ![8, K, M]⟩, ⟨3, ![8, K, M]⟩] ⟨3, ![8, 2 * K, M]⟩ 1)
    (b : Fin 8) (p : Fin 2) (hp : p.val = 1) (k : Fin K) (j : Fin M) :
    concatenate ⟨3, ![8, 2 * K, M]⟩ 1 [⟨⟨3, ![8, K, M]⟩, x₀⟩, ⟨⟨3, ![8, K, M]⟩, x₁⟩] h (ix3 b (half K p k) j) = x₁ (ix3 b k j) :=
  concatenate_pair_apply_right 1 x₀ x₁ h _ rfl rfl (ix3 b k j)
    (fun a ha => by
      match a with
      | ⟨0, _⟩ => rfl
      | ⟨1, _⟩ => exact absurd rfl ha
      | ⟨2, _⟩ => rfl)
    (by show k.val + K = K * p.val + k.val; rw [hp]; omega)

end Join

/-- THE BLOCK-DIAGONAL ARRAY diag (w, w), built as [[w | z], [z | w]] from an array `z` of zeros: the entry at row
    `K · p + k` and column `N · q + f` is `w (k, f)` on the diagonal blocks and `0` off them. -/
theorem blockdiag_apply {K N : Nat} (w z : (⟨3, ![8, K, N]⟩ : Shape).Idx → EReal) (hz : ∀ i, z i = 0)
    (h2 : Shape.Concatenates [⟨3, ![8, K, N]⟩, ⟨3, ![8, K, N]⟩] ⟨3, ![8, K, 2 * N]⟩ 2)
    (h1 : Shape.Concatenates [⟨3, ![8, K, 2 * N]⟩, ⟨3, ![8, K, 2 * N]⟩] ⟨3, ![8, 2 * K, 2 * N]⟩ 1)
    (b : Fin 8) (p q : Fin 2) (k : Fin K) (f : Fin N) :
    concatenate ⟨3, ![8, 2 * K, 2 * N]⟩ 1
        [⟨⟨3, ![8, K, 2 * N]⟩, concatenate ⟨3, ![8, K, 2 * N]⟩ 2 [⟨⟨3, ![8, K, N]⟩, w⟩, ⟨⟨3, ![8, K, N]⟩, z⟩] h2⟩,
         ⟨⟨3, ![8, K, 2 * N]⟩, concatenate ⟨3, ![8, K, 2 * N]⟩ 2 [⟨⟨3, ![8, K, N]⟩, z⟩, ⟨⟨3, ![8, K, N]⟩, w⟩] h2⟩] h1
        (ix3 b (half K p k) (half N q f))
      = if p = q then w (ix3 b k f) else 0 := by
  have hp : p.val = 0 ∨ p.val = 1 := by have := p.isLt; omega
  have hq : q.val = 0 ∨ q.val = 1 := by have := q.isLt; omega
  rcases hp with hp | hp <;> rcases hq with hq | hq
  · rw [if_pos (Fin.ext (hp.trans hq.symm))]
    exact (join_mid_fst _ _ h1 b p hp k _).trans (join_last_fst w z h2 b k q hq f)
  · rw [if_neg (fun e => by rw [e] at hp; omega)]
    exact ((join_mid_fst _ _ h1 b p hp k _).trans (join_last_snd w z h2 b k q hq f)).trans (hz _)
  · rw [if_neg (fun e => by rw [e] at hp; omega)]
    exact ((join_mid_snd _ _ h1 b p hp k _).trans (join_last_fst z w h2 b k q hq f)).trans (hz _)
  · rw [if_pos (Fin.ext (hp.trans hq.symm))]
    exact (join_mid_snd _ _ h1 b p hp k _).trans (join_last_snd z w h2 b k q hq f)

/-! ## The three arrays as the kernel finds them -/

variable (m : (ℓ : Loc nD τ sig) → Buf (Elt Ideal) ℓ) (c : Dev nD)

/-- The bf16 zero word is the number `0`. -/
theorem bf16_zero : Ideal.ofBits .bf16 0x0000#16 = 0 := by simp [Ideal.ofBits, Ideal.ieee]

/-- The tokens: the input array with its two middle axes merged. -/
def tokens : STok.Idx → EReal :=
  shapeCast S8x65536x64 (m ((c : Thread nD τ).loc main_arg0)) shapeCasts_S8x8x8192x64_S8x65536x64

/-- The first-layer weights, as launched. -/
def weights1 : SW1.Idx → EReal := m ((c : Thread nD τ).loc main_arg1)
/-- The second-layer weights, as launched. -/
def weights2 : SW2.Idx → EReal := m ((c : Thread nD τ).loc main_arg2)

/-- Window 0's array holds the tokens two to a row. -/
theorem rows_eq : (V (F := Ideal) m c main_v1 : S8x32768x128.Idx → EReal)
    = shapeCast S8x32768x128 (tokens m c) shapeCasts_S8x65536x64_S8x32768x128 := by
  show StableHlo.after hostOps0 (fun b => m (c, b)) (Proc.devRef .tc main_v1) = _
  after_results
  rfl

/-- Entry `64 p + k` of row `r` is feature `k` of token `2 r + p`. -/
theorem rows_apply (b : Fin 8) (r : Fin 32768) (p : Fin 2) (k : Fin 64) :
    (V (F := Ideal) m c main_v1 : S8x32768x128.Idx → EReal) (ix3 b r (half 64 p k))
      = tokens m c (ix3 b ⟨2 * r.val + p.val, by omega⟩ k) := by
  rw [rows_eq]
  refine shapeCast_apply (tokens m c) shapeCasts_S8x65536x64_S8x32768x128 _ _ ?_
  rewrite [Shape.rowMajor_val_three, Shape.rowMajor_val_three]
  show (b.val * 65536 + (2 * r.val + p.val)) * 64 + k.val = (b.val * 32768 + r.val) * 128 + (64 * p.val + k.val)
  omega

/-- Window 1's array is diag (w1, w1) of the first-layer weights. -/
theorem w1d_apply (b : Fin 8) (p q : Fin 2) (k : Fin 64) (f : Fin 256) :
    (V (F := Ideal) m c main_v6 : S8x128x512.Idx → EReal) (ix3 b (half 64 p k) (half 256 q f))
      = if p = q then weights1 m c (ix3 b k f) else 0 := by
  have e : (V (F := Ideal) m c main_v6 : S8x128x512.Idx → EReal)
      = concatenate S8x128x512 1
        [⟨S8x64x512, concatenate S8x64x512 2
            [⟨S8x64x256, truncf .bf16 (weights1 m c) bitsLt_bf16_f32⟩,
             ⟨S8x64x256, broadcastInDim S8x64x256 ![] bcast_S_S8x64x256 (constant (F := Ideal) S_ .bf16 0x0000#16)⟩]
            concatenates_S8x64x256_S8x64x256_S8x64x512_d2⟩,
         ⟨S8x64x512, concatenate S8x64x512 2
            [⟨S8x64x256, broadcastInDim S8x64x256 ![] bcast_S_S8x64x256 (constant (F := Ideal) S_ .bf16 0x0000#16)⟩,
             ⟨S8x64x256, truncf .bf16 (weights1 m c) bitsLt_bf16_f32⟩]
            concatenates_S8x64x256_S8x64x256_S8x64x512_d2⟩]
        concatenates_S8x64x512_S8x64x512_S8x128x512_d1 := by
    show StableHlo.after hostOps0 (fun b => m (c, b)) (Proc.devRef .tc main_v6) = _
    after_results <;> rfl
  rw [e]
  exact blockdiag_apply (K := 64) (N := 256) _ _ (fun _ => bf16_zero) _ _ b p q k f

/-- Window 2's array is diag (w2, w2) of the second-layer weights. -/
theorem w2d_apply (b : Fin 8) (p q : Fin 2) (f : Fin 256) (d : Fin 64) :
    (V (F := Ideal) m c main_v11 : S8x512x128.Idx → EReal) (ix3 b (half 256 p f) (half 64 q d))
      = if p = q then weights2 m c (ix3 b f d) else 0 := by
  have e : (V (F := Ideal) m c main_v11 : S8x512x128.Idx → EReal)
      = concatenate S8x512x128 1
        [⟨S8x256x128, concatenate S8x256x128 2
            [⟨S8x256x64, truncf .bf16 (weights2 m c) bitsLt_bf16_f32⟩,
             ⟨S8x256x64, broadcastInDim S8x256x64 ![] bcast_S_S8x256x64 (constant (F := Ideal) S_ .bf16 0x0000#16)⟩]
            concatenates_S8x256x64_S8x256x64_S8x256x128_d2⟩,
         ⟨S8x256x128, concatenate S8x256x128 2
            [⟨S8x256x64, broadcastInDim S8x256x64 ![] bcast_S_S8x256x64 (constant (F := Ideal) S_ .bf16 0x0000#16)⟩,
             ⟨S8x256x64, truncf .bf16 (weights2 m c) bitsLt_bf16_f32⟩]
            concatenates_S8x256x64_S8x256x64_S8x256x128_d2⟩]
        concatenates_S8x256x128_S8x256x128_S8x512x128_d1 := by
    show StableHlo.after hostOps0 (fun b => m (c, b)) (Proc.devRef .tc main_v11) = _
    after_results <;> rfl
  rw [e]
  exact blockdiag_apply (K := 256) (N := 64) _ _ (fun _ => bf16_zero) _ _ b p q f d

end Cert.KernelIdeal.Staged

end
-- ==== Proof.Unpacked.lean ====
/-
  From the kernel's result array to the program's result.

  After the kernel two reshapes follow, [8, 32768, 128] → [8, 65536, 64] → [8, 8, 8192, 64]. The first one takes rows of
  two tokens apart again: token `t` of slot `b` is half `t mod 2` of row `t / 2`
  (`(b · 32768 + t / 2) · 128 + 64 (t mod 2) + d = (b · 65536 + t) · 64 + d`). The kernel's array is the feed-forward taken
  two tokens at a time over block-diagonal weights, so by the law of `Cert.Ffn.ffnRows_eq_ffn` the array after the first
  reshape is the feed-forward of the tokens, `Cert.Ffn.ffn`; the second reshape is the one the reference ends with.
-/
import proofs.«160526_j61933428416507_2_alg».proof.Proof.PackedResult
import proofs.«160526_j61933428416507_2_alg».proof.Proof.StagedArrays
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Idealize.ShloMosaic.ValueIdx Cert.KernelIdeal Cert.KernelIdeal.Gen Cert.Ffn

variable (m : (ℓ : Loc nD τ sig) → Buf (Elt Ideal) ℓ) (ρ : Dev nD → PrngReg)

/-- The rows taken apart are the feed-forward of the tokens. -/
theorem unpacked_eq (c : Dev nD) :
    shapeCast S8x65536x64 (Rows.packed m c) shapeCasts_S8x32768x128_S8x65536x64
      = ffn (Staged.tokens m c) (Staged.weights1 m c) (Staged.weights2 m c) := by
  funext i
  obtain ⟨b, t, d, rfl⟩ : ∃ (b : Fin 8) (t : Fin 65536) (d : Fin 64), i = ix3 b t d := ⟨i 0, i 1, i 2, eq_ix3 i⟩
  have ht : t.val < 65536 := t.isLt
  let r : Fin 32768 := ⟨t.val / 2, by omega⟩
  let q : Fin 2 := ⟨t.val % 2, by omega⟩
  refine (shapeCast_apply (Rows.packed m c) shapeCasts_S8x32768x128_S8x65536x64 (ix3 b t d) (ix3 b r (half 64 q d)) ?_).trans ?_
  · rewrite [Shape.rowMajor_val_three, Shape.rowMajor_val_three]
    show (b.val * 32768 + t.val / 2) * 128 + (64 * (t.val % 2) + d.val) = (b.val * 65536 + t.val) * 64 + d.val
    omega
  refine (ffnRows_eq_ffn (Staged.tokens m c) (Staged.weights1 m c) (Staged.weights2 m c) _ _ _
    (Staged.rows_apply m c) (Staged.w1d_apply m c) (Staged.w2d_apply m c) b r q d).trans ?_
  exact congrArg (fun t' : Fin 65536 => ffn (Staged.tokens m c) (Staged.weights1 m c) (Staged.weights2 m c) (ix3 b t' d))
    (Fin.ext (by show 2 * (t.val / 2) + t.val % 2 = t.val; omega))

/-- What the program returns: the feed-forward of the tokens with the token axis split into its two axes again. -/
def result (c : Dev nD) : S8x8x8192x64.Idx → EReal :=
  shapeCast S8x8x8192x64 (ffn (Staged.tokens m c) (Staged.weights1 m c) (Staged.weights2 m c)) shapeCasts_S8x65536x64_S8x8x8192x64

/-- The result buffer after the host operations that follow the kernel. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  rw [Pipeline.withArrays_arr spec0 launch0.win.arr_inj c _ _ 3, Rows.final m c]
  unfold result
  rw [← unpacked_eq m c]
  rfl

end Cert.KernelIdeal.Result

end
-- ==== Proof.ReferenceIsFfn.lean ====
/-
  The reference program computes the two-layer feed-forward.

  Its operations, in order: merge the two middle axes of the input ([8, 8, 8192, 64] → [8, 65536, 64]); multiply, slot
  by slot, by the first-layer weights (a sum over the 64 input features); take the maximum with zero; multiply, slot by
  slot, by the second-layer weights (a sum over the 256 hidden features); split the merged axis again. Entry `(b, t, d)`
  before the last reshape is therefore exactly `Cert.Ffn.ffn` of the merged input at `(b, t, d)` — the same sums, in
  the same order, so nothing but reading each stage at an index is needed.
-/
import proofs.«160526_j61933428416507_2_alg».proof.Proof.Gen.ReferenceIdeal.Read
import proofs.«160526_j61933428416507_2_alg».proof.Proof.FfnSpec
import Idealize.ShloMosaic.PureOps.Ideal.Laws

noncomputable section

open scoped BigOperators

namespace Cert.ReferenceIdeal.AsFfn

open Idealize.ShloMosaic Idealize.ShloMosaic.ValueIdx Cert.ReferenceIdeal Cert.ReferenceIdeal.Gen Cert.ReferenceIdeal.Read Cert.Ffn

variable (x : S8x8x8192x64.Idx → EReal) (w1 : S8x64x256.Idx → EReal) (w2 : S8x256x64.Idx → EReal)

/-- The hidden activation of token `t` of slot `b` at hidden feature `f`. -/
theorem hidden_apply (b : Fin 8) (t : Fin 65536) (f : Fin 256) :
    val_main_v2 (F := Ideal) x w1 (ix3 b t f)
      = max (∑ k : Fin 64, val_main_v0 (F := Ideal) x (ix3 b t k) * w1 (ix3 b k f)) 0 := by
  rw [val_main_v2_apply, val_main_v1_apply, val_main_call0_v0_apply, val_main_call0_cst_apply]
  refine congrArg₂ max (Finset.sum_congr rfl fun k _ => congrArg₂ (· * ·) (congrArg _ ?_) (congrArg _ ?_)) Ideal.ofBits_zero_f32
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's value before its last reshape is the feed-forward of the merged input. -/
theorem stage_eq : val_main_v3 (F := Ideal) x w1 w2 = ffn (val_main_v0 (F := Ideal) x) w1 w2 := by
  funext i
  obtain ⟨b, t, d, rfl⟩ : ∃ (b : Fin 8) (t : Fin 65536) (d : Fin 64), i = ix3 b t d := ⟨i 0, i 1, i 2, eq_ix3 i⟩
  rw [val_main_v3_apply]
  show _ = ∑ f : Fin 256, max (∑ k : Fin 64, val_main_v0 (F := Ideal) x (ix3 b t k) * w1 (ix3 b k f)) 0 * w2 (ix3 b f d)
  refine Finset.sum_congr rfl fun f _ => congrArg₂ (· * ·) ?_ (congrArg _ ?_)
  · have e : lidx_main_v3 (ix3 b t d) f = ix3 b t f := by
      funext a
      match a with
      | ⟨0, _⟩ => rfl
      | ⟨1, _⟩ => rfl
      | ⟨2, _⟩ => rfl
    rw [e]
    exact hidden_apply x w1 b t f
  · funext a
    match a with
    | ⟨0, _⟩ => rfl
    | ⟨1, _⟩ => rfl
    | ⟨2, _⟩ => rfl

end Cert.ReferenceIdeal.AsFfn

end
-- ==== Proof.lean ====
/-
  The kernel and its reference compute the same array on the extended reals.

  Both programs take tokens `x : [8, 8, 8192, 64]` and per-slot weights `w1 : [8, 64, 256]`, `w2 : [8, 256, 64]`, read the
  tokens as `[8, 65536, 64]` (slot, token, feature), and return, with the token axis split again,

      Σ_{f < 256} max (Σ_{k < 64} x (b, t, k) · w1 (b, k, f)) 0 · w2 (b, f, d)          (`Cert.Ffn.ffn`).

  The reference computes this expression as written (`Cert.ReferenceIdeal.AsFfn.stage_eq`). The kernel lays two tokens
  side by side in rows of 128 entries, builds the block-diagonal weights diag (w1, w1) and diag (w2, w2) out of the
  weights and zeros, evaluates the same expression on rows block by block over an 8 × 8 grid
  (`Cert.KernelIdeal.Rows.final`), and takes the rows apart again. The two agree because every cross term is a product
  with a zero entry of a block-diagonal matrix, and `x · 0 = 0` holds for every extended real; the rest is regrouping
  sums (`Cert.Ffn.ffnRows_eq_ffn`, `Cert.KernelIdeal.Result.unpacked_eq`). No step divides, cancels or distributes, so
  the inputs' finiteness is not used.

  The three frame conjuncts are the generated frame runs (the reference's is its generated run with the result
  dropped); the idealization rewrote no operation, so `preserves` is `True`.
-/
import proofs.«160526_j61933428416507_2_alg».proof.Defs
import proofs.«160526_j61933428416507_2_alg».proof.Proof.Gen.Kernel
import proofs.«160526_j61933428416507_2_alg».proof.Proof.Gen.Kernel.Skeleton
import proofs.«160526_j61933428416507_2_alg».proof.Proof.Gen.Kernel.Launch
import proofs.«160526_j61933428416507_2_alg».proof.Proof.Gen.Kernel.Points
import proofs.«160526_j61933428416507_2_alg».proof.Proof.Gen.Kernel.Frame
import proofs.«160526_j61933428416507_2_alg».proof.Proof.Gen.KernelIdeal
import proofs.«160526_j61933428416507_2_alg».proof.Proof.Gen.KernelIdeal.Skeleton
import proofs.«160526_j61933428416507_2_alg».proof.Proof.Gen.KernelIdeal.Launch
import proofs.«160526_j61933428416507_2_alg».proof.Proof.Gen.KernelIdeal.Points
import proofs.«160526_j61933428416507_2_alg».proof.Proof.Gen.KernelIdeal.Frame
import proofs.«160526_j61933428416507_2_alg».proof.Proof.Gen.ReferenceIdeal
import proofs.«160526_j61933428416507_2_alg».proof.Proof.Gen.Pre_finite_inputs
import proofs.«160526_j61933428416507_2_alg».proof.Proof.Gen.ReferenceIdeal.Run
import proofs.«160526_j61933428416507_2_alg».proof.Proof.Gen.ReferenceIdeal.Read
import proofs.«160526_j61933428416507_2_alg».proof.Proof.Unpacked
import proofs.«160526_j61933428416507_2_alg».proof.Proof.ReferenceIsFfn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run with its result named: the result buffer ends at the feed-forward of the tokens, split
    back into `[8, 8, 8192, 64]`, and the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v14) = Cert.KernelIdeal.Result.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v14 (Pipeline.mem_restRefs_of Cert.KernelIdeal.main_v14 (by decide) (by decide))).trans
        (Cert.KernelIdeal.Result.tail_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩)
    (Cert.KernelIdeal.Gen.run_main m ρ)

/-- From memories agreeing on the arguments both programs end with the feed-forward of the tokens: the kernel by
    `kernel_run`, the reference by its generated run, whose term is that function (`AsFfn.stage_eq`). -/
theorem algebraic : Cert.algebraic_KernelIdeal_ReferenceIdeal := by
  intro m ρ m' ρ' _ hagree
  refine ⟨fun c => Cert.KernelIdeal.Result.result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2]
  unfold Cert.ReferenceIdeal.Read.val_main_v4
  rw [Cert.ReferenceIdeal.AsFfn.stage_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
